-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576 : Shape := ⟨1, ![1048576]⟩
abbrev S1000000x128 : Shape := ⟨2, ![1000000, 128]⟩
abbrev S500x128 : Shape := ⟨2, ![500, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_

variable [Facts]

def fn {F : FTy → Type} [FloatOps F] (main_arg0 : IVec S1048576 32) (main_arg1 : IVec S1048576 32) (main_arg2 : IVec S1048576 32) (main_arg3 : FVec F S1000000x128 .f32) (main_arg4 : FVec F S500x128 .f32) : IVec S_ 1 :=
  let main_v0 : FVec F S1000000x128 .f32 := Host.absf main_arg3
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S500x128 .f32 := Host.absf main_arg4
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  main_v8
-- ==== Kernel.lean ====
abbrev S1048576 : Shape := ⟨1, ![1048576]⟩
abbrev S1000000x128 : Shape := ⟨2, ![1000000, 128]⟩
abbrev S500x128 : Shape := ⟨2, ![500, 128]⟩
abbrev S_ : Shape := ⟨0, ![]⟩
abbrev S1048576x1 : Shape := ⟨2, ![1048576, 1]⟩
abbrev S1048576x128 : Shape := ⟨2, ![1048576, 128]⟩
abbrev S8192x128 : Shape := ⟨2, ![8192, 128]⟩
abbrev S8192 : Shape := ⟨1, ![8192]⟩

abbrev nBuf : Space → Nat
  | .hbm => 33
  | .vmem => 8
  | .smem => 0
  | _ => 0

abbrev bufTy : (tb : Table) → Fin (tcTables nBuf tb) → BufTy
  | .hbm, ⟨0, _⟩ => ⟨S1048576, .i32⟩
  | .hbm, ⟨1, _⟩ => ⟨S1048576, .i32⟩
  | .hbm, ⟨2, _⟩ => ⟨S1048576, .i32⟩
  | .hbm, ⟨3, _⟩ => ⟨S1000000x128, .f32⟩
  | .hbm, ⟨4, _⟩ => ⟨S500x128, .f32⟩
  | .hbm, ⟨5, _⟩ => ⟨S_, .i32⟩
  | .hbm, ⟨6, _⟩ => ⟨S1048576, .i32⟩
  | .hbm, ⟨7, _⟩ => ⟨S1048576, .i1⟩
  | .hbm, ⟨8, _⟩ => ⟨S_, .i32⟩
  | .hbm, ⟨9, _⟩ => ⟨S1048576, .i32⟩
  | .hbm, ⟨10, _⟩ => ⟨S1048576, .i32⟩
  | .hbm, ⟨11, _⟩ => ⟨S1048576, .i32⟩
  | .hbm, ⟨12, _⟩ => ⟨S1048576x1, .i32⟩
  | .hbm, ⟨13, _⟩ => ⟨S1048576x128, .f32⟩
  | .hbm, ⟨14, _⟩ => ⟨S_, .i32⟩
  | .hbm, ⟨15, _⟩ => ⟨S1048576, .i32⟩
  | .hbm, ⟨16, _⟩ => ⟨S1048576, .i1⟩
  | .hbm, ⟨17, _⟩ => ⟨S_, .i32⟩
  | .hbm, ⟨18, _⟩ => ⟨S1048576, .i32⟩
  | .hbm, ⟨19, _⟩ => ⟨S1048576, .i32⟩
  | .hbm, ⟨20, _⟩ => ⟨S1048576, .i32⟩
  | .hbm, ⟨21, _⟩ => ⟨S1048576x1, .i32⟩
  | .hbm, ⟨22, _⟩ => ⟨S1048576x128, .f32⟩
  | .hbm, ⟨23, _⟩ => ⟨S_, .i32⟩
  | .hbm, ⟨24, _⟩ => ⟨S1048576, .i32⟩
  | .hbm, ⟨25, _⟩ => ⟨S1048576, .i1⟩
  | .hbm, ⟨26, _⟩ => ⟨S_, .i32⟩
  | .hbm, ⟨27, _⟩ => ⟨S1048576, .i32⟩
  | .hbm, ⟨28, _⟩ => ⟨S1048576, .i32⟩
  | .hbm, ⟨29, _⟩ => ⟨S1048576, .i32⟩
  | .hbm, ⟨30, _⟩ => ⟨S1048576x1, .i32⟩
  | .hbm, ⟨31, _⟩ => ⟨S1048576x128, .f32⟩
  | .hbm, ⟨32, _⟩ => ⟨S1048576, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192, .f32⟩
  | .local _ .vmem, ⟨7, _⟩ => ⟨S8192, .f32⟩
  | _, _ => ⟨S1048576, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  inb_S8192_S8192_0 : ∀ a, (![0] : Fin 1 → Nat) a + S8192.size a ≤ S8192.size a
  h_S8192 : 0 < S8192.numel
  gather_S1000000x128_S1048576x1_S1048576x128_1_0_n_n_0_1_1128_wf : GatherDims.WF S1000000x128 S1048576x1 S1048576x128 [1] [0] [] [0] [] 1 ![1, 128]
  gather_S500x128_S1048576x1_S1048576x128_1_0_n_n_0_1_1128_wf : GatherDims.WF S500x128 S1048576x1 S1048576x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1048576x128.size a
  hwx0_1 : ∀ i : grid0.Coords, EltTy.bits .f32 = 32 ∨ (Rect.block (s := S1048576x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S1048576x128.size a
  hwx0_2 : ∀ i : grid0.Coords, EltTy.bits .f32 = 32 ∨ (Rect.block (s := S1048576x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S1048576.size a
  hwx0_3 : ∀ i : grid0.Coords, EltTy.bits .f32 = 32 ∨ (Rect.block (s := S1048576) S8192.size (cc0_transform_3 i) (hinb0_3 i)).WholeWords (EltTy.packing .f32)

variable [Facts₀]

def gather_S1000000x128_S1048576x1_S1048576x128_1_0_n_n_0_1_1128 : GatherDims S1000000x128 S1048576x1 S1048576x128 where
  offsetDims := [1]
  collapsedSliceDims := [0]
  operandBatchingDims := []
  startIndicesBatchingDims := []
  startIndexMap := [0]
  indexVectorDim := 1
  sliceSizes := ![1, 128]
  wf := gather_S1000000x128_S1048576x1_S1048576x128_1_0_n_n_0_1_1128_wf
def gather_S500x128_S1048576x1_S1048576x128_1_0_n_n_0_1_1128 : GatherDims S500x128 S1048576x1 S1048576x128 where
  offsetDims := [1]
  collapsedSliceDims := [0]
  operandBatchingDims := []
  startIndicesBatchingDims := []
  startIndexMap := [0]
  indexVectorDim := 1
  sliceSizes := ![1, 128]
  wf := gather_S500x128_S1048576x1_S1048576x128_1_0_n_n_0_1_1128_wf

abbrev win0_0 : Pipeline.Window sig grid0 :=
  Pipeline.Window.ofSpec (Memref.whole main_v6) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576 : Shape := ⟨1, ![1048576]⟩
abbrev S1000000x128 : Shape := ⟨2, ![1000000, 128]⟩
abbrev S500x128 : Shape := ⟨2, ![500, 128]⟩
abbrev S_ : Shape := ⟨0, ![]⟩
abbrev S1048576x1 : Shape := ⟨2, ![1048576, 1]⟩
abbrev S1048576x128 : Shape := ⟨2, ![1048576, 128]⟩

abbrev nBuf : Space → Nat
  | .hbm => 44
  | .vmem => 0
  | .smem => 0
  | _ => 0

abbrev bufTy : (tb : Table) → Fin (tcTables nBuf tb) → BufTy
  | .hbm, ⟨0, _⟩ => ⟨S1048576, .i32⟩
  | .hbm, ⟨1, _⟩ => ⟨S1048576, .i32⟩
  | .hbm, ⟨2, _⟩ => ⟨S1048576, .i32⟩
  | .hbm, ⟨3, _⟩ => ⟨S1000000x128, .f32⟩
  | .hbm, ⟨4, _⟩ => ⟨S500x128, .f32⟩
  | .hbm, ⟨5, _⟩ => ⟨S_, .i32⟩
  | .hbm, ⟨6, _⟩ => ⟨S1048576, .i32⟩
  | .hbm, ⟨7, _⟩ => ⟨S1048576, .i1⟩
  | .hbm, ⟨8, _⟩ => ⟨S_, .i32⟩
  | .hbm, ⟨9, _⟩ => ⟨S1048576, .i32⟩
  | .hbm, ⟨10, _⟩ => ⟨S1048576, .i32⟩
  | .hbm, ⟨11, _⟩ => ⟨S1048576, .i32⟩
  | .hbm, ⟨12, _⟩ => ⟨S1048576x1, .i32⟩
  | .hbm, ⟨13, _⟩ => ⟨S1048576x128, .f32⟩
  | .hbm, ⟨14, _⟩ => ⟨S_, .i32⟩
  | .hbm, ⟨15, _⟩ => ⟨S1048576, .i32⟩
  | .hbm, ⟨16, _⟩ => ⟨S1048576, .i1⟩
  | .hbm, ⟨17, _⟩ => ⟨S_, .i32⟩
  | .hbm, ⟨18, _⟩ => ⟨S1048576, .i32⟩
  | .hbm, ⟨19, _⟩ => ⟨S1048576, .i32⟩
  | .hbm, ⟨20, _⟩ => ⟨S1048576, .i32⟩
  | .hbm, ⟨21, _⟩ => ⟨S1048576x1, .i32⟩
  | .hbm, ⟨22, _⟩ => ⟨S1048576x128, .f32⟩
  | .hbm, ⟨23, _⟩ => ⟨S_, .i32⟩
  | .hbm, ⟨24, _⟩ => ⟨S1048576, .i32⟩
  | .hbm, ⟨25, _⟩ => ⟨S1048576, .i1⟩
  | .hbm, ⟨26, _⟩ => ⟨S_, .i32⟩
  | .hbm, ⟨27, _⟩ => ⟨S1048576, .i32⟩
  | .hbm, ⟨28, _⟩ => ⟨S1048576, .i32⟩
  | .hbm, ⟨29, _⟩ => ⟨S1048576, .i32⟩
  | .hbm, ⟨30, _⟩ => ⟨S1048576x1, .i32⟩
  | .hbm, ⟨31, _⟩ => ⟨S1048576x128, .f32⟩
  | .hbm, ⟨32, _⟩ => ⟨S1048576x128, .f32⟩
  | .hbm, ⟨33, _⟩ => ⟨S1048576x128, .f32⟩
  | .hbm, ⟨34, _⟩ => ⟨S_, .f32⟩
  | .hbm, ⟨35, _⟩ => ⟨S1048576, .f32⟩
  | .hbm, ⟨36, _⟩ => ⟨S1048576, .f32⟩
  | .hbm, ⟨37, _⟩ => ⟨S1048576, .f32⟩
  | .hbm, ⟨38, _⟩ => ⟨S_, .f32⟩
  | .hbm, ⟨39, _⟩ => ⟨S1048576, .f32⟩
  | .hbm, ⟨40, _⟩ => ⟨S1048576, .f32⟩
  | .hbm, ⟨41, _⟩ => ⟨S_, .f32⟩
  | .hbm, ⟨42, _⟩ => ⟨S1048576, .f32⟩
  | .hbm, ⟨43, _⟩ => ⟨S1048576, .f32⟩
  | _, _ => ⟨S1048576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S1048576x128_S1048576_d1 : S1048576x128.ReducesTo [1] S1048576
  h_S_ : 0 < S_.numel
  gather_S1000000x128_S1048576x1_S1048576x128_1_0_n_n_0_1_1128_wf : GatherDims.WF S1000000x128 S1048576x1 S1048576x128 [1] [0] [] [0] [] 1 ![1, 128]
  gather_S500x128_S1048576x1_S1048576x128_1_0_n_n_0_1_1128_wf : GatherDims.WF S500x128 S1048576x1 S1048576x128 [1] [0] [] [0] [] 1 ![1, 128]

variable [Facts₀]

def gather_S1000000x128_S1048576x1_S1048576x128_1_0_n_n_0_1_1128 : GatherDims S1000000x128 S1048576x1 S1048576x128 where
  offsetDims := [1]
  collapsedSliceDims := [0]
  operandBatchingDims := []
  startIndicesBatchingDims := []
  startIndexMap := [0]
  indexVectorDim := 1
  sliceSizes := ![1, 128]
  wf := gather_S1000000x128_S1048576x1_S1048576x128_1_0_n_n_0_1_1128_wf
def gather_S500x128_S1048576x1_S1048576x128_1_0_n_n_0_1_1128 : GatherDims S500x128 S1048576x1 S1048576x128 where
  offsetDims := [1]
  collapsedSliceDims := [0]
  operandBatchingDims := []
  startIndicesBatchingDims := []
  startIndexMap := [0]
  indexVectorDim := 1
  sliceSizes := ![1, 128]
  wf := gather_S500x128_S1048576x1_S1048576x128_1_0_n_n_0_1_1128_wf

class Facts : Prop extends Facts₀ where

variable [Facts]
-- ==== Proof.Score.lean ====
/-
  The score both programs compute, as ONE function of three row arrays.

  For arrays `H`, `R`, `T` of shape [1048576, 128] (one 128-wide row per triple: the head entity's row, the
  relation's diagonal, the tail entity's row), the score of triple `b` is

      σ( Σ_k (H[b,k] · R[b,k]) · T[b,k] ),        σ(s) = 1 / (1 + e^(−s)),

  read on the extended reals: the bilinear form hᵀ diag(r) t followed by the logistic function. The product is
  grouped (h·r)·t, as both programs group it, so nothing here uses associativity or distributivity and no entry
  needs to be finite. The arrays stay abstract: which table rows they hold is the same on both sides and is
  never opened.
-/
import Idealize.ShloMosaic.PureOps.Ideal
import Idealize.ShloMosaic.PureOps.Ideal.Laws
import Idealize.ShloMosaic.Lib.IdealHost
import Idealize.ShloMosaic.Lib.ValueIdx

noncomputable section

open scoped BigOperators

namespace Cert.DistMult

open Idealize.ShloMosaic Idealize.ShloMosaic.ValueIdx

/-- The shape of a row array: 1048576 triples, 128 columns. -/
abbrev Rows : Shape := ⟨2, ![1048576, 128]⟩
/-- The shape of the score vector: one score per triple. -/
abbrev Scores : Shape := ⟨1, ![1048576]⟩

/-- Triple `b`'s trilinear form: the sum over the 128 columns of head · relation · tail, grouped (h·r)·t. -/
def trilinear (H R T : FVec Ideal Rows .f32) (b : Fin 1048576) : EReal :=
  ∑ k : Fin 128, H (ix2 b k) * R (ix2 b k) * T (ix2 b k)

/-- The score vector: the logistic function of each triple's trilinear form. -/
def score (H R T : FVec Ideal Rows .f32) : FVec Ideal Scores .f32 :=
  fun i => Ideal.logistic (trilinear H R T (i 0))

/-- The logistic function spelt out, `1 / (1 + e^(−s))`, with each `1` the f32 word of 1.0: that word denotes the
    extended real one, and the quotient, sum, exponential and negation are the ones the logistic function is
    defined by, so the two agree at every extended real `s`, the infinities included. -/
theorem logistic_spelt (s : EReal) :
    Ideal.div (Ideal.ofBits .f32 0x3F800000#32) (Ideal.ofBits .f32 0x3F800000#32 + Ideal.exp (-s)) = Ideal.logistic s := by
  rw [Ideal.ofBits_one_f32]; rfl

end Cert.DistMult

end
-- ==== Proof.RefScore.lean ====
/-
  The reference computes the score.

  Its last stage is 1 / (1 + e^(−s)) with s the host's row sum 0 + Σ_k (h·r)·t of the three gathered arrays. Read at
  a triple `b`, the row sum's initial value is the zero word, which adds nothing, the summand at column `k` is the
  product of the three arrays at (b, k), and the spelt-out quotient is the logistic function. So the stage is
  `score` of the gathered arrays, whatever rows the gathers picked.
-/
import proofs.«180150_j88519275970866_1_alg».proof.Proof.Gen.ReferenceIdeal.Read
import proofs.«180150_j88519275970866_1_alg».proof.Proof.Score

noncomputable section

open scoped BigOperators

namespace Cert.DistMult.Ref

open Idealize.ShloMosaic Idealize.ShloMosaic.ValueIdx
open Cert.ReferenceIdeal Cert.ReferenceIdeal.Read Cert.DistMult

/-- The row sum's index at triple `i` and column `k` is the pair (i, k). -/
theorem sum_index (i : S1048576.Idx) (k : Fin 128) : idx_main_v23 i k = ix2 (i 0) k :=
  funext fun a => Fin.ext (by match a with | ⟨0, _⟩ => rfl | ⟨1, _⟩ => rfl)

/-- The reference's result stage is the score of its three gathered arrays: head rows, relation rows, tail rows. -/
theorem stage_eq_score (x0 x1 x2 : (⟨S1048576, .i32⟩ : BufTy).Contents (Elt Ideal))
    (x3 : (⟨S1000000x128, .f32⟩ : BufTy).Contents (Elt Ideal)) (x4 : (⟨S500x128, .f32⟩ : BufTy).Contents (Elt Ideal)) :
    val_main_v29 (F := Ideal) x0 x1 x2 x3 x4
      = score (val_main_v6 (F := Ideal) x0 x3) (val_main_v20 (F := Ideal) x2 x4) (val_main_v13 (F := Ideal) x1 x3) := by
  funext i
  rw [val_main_v29_apply, val_main_v28_apply, val_main_cst_6_apply, val_main_v27_apply, val_main_v26_apply,
    val_main_cst_5_apply, val_main_v25_apply, val_main_v24_apply, val_main_v23_apply, val_main_cst_apply]
  simp only [val_main_v22_apply, val_main_v21_apply, sum_index, Ideal.hostDivf_def, Ideal.addf_def,
    Ideal.hostUnary_exp_def, Ideal.hostNegf_def, Ideal.negf_def, Ideal.mulf_def, Ideal.ofBits_def,
    Ideal.ofBits_zero_f32, zero_add]
  exact logistic_spelt _

end Cert.DistMult.Ref

end
-- ==== Proof.BlockRow.lean ====
/-
  What one grid point leaves in its output block, row by row.

  The kernel body loads three [8192, 128] blocks (head, tail, relation rows), multiplies head by relation and then by
  tail, sums each row over its 128 columns, and applies the logistic function. The generated value leg already says
  the block the point leaves is that expression read at the row (`E3`); here the row sum is opened: at row `r` it is
  the sum over the 128 columns `k` of the three blocks' product at (r, k). The statement is over arbitrary blocks, so it
  serves at every grid point.
-/
import proofs.«180150_j88519275970866_1_alg».proof.Proof.Gen.KernelIdeal.Value
import proofs.«180150_j88519275970866_1_alg».proof.Proof.Score
import Idealize.ShloMosaic.Lib.Pipeline.Value
import Idealize.ShloMosaic.Lib.ValueIdx
import Idealize.ShloMosaic.PureOps.Ideal.Laws

noncomputable section

open scoped BigOperators

namespace Cert.DistMult.Block

open Idealize.ShloMosaic Idealize.ShloMosaic.ValueIdx
open Cert.KernelIdeal Cert.KernelIdeal.Gen Cert.KernelIdeal.Value

/-- The lane sum over the 128 columns of an [8192, 128] block, read at row `r`: the sum of the row's entries. -/
theorem row_sum (src : FVec Ideal S8192x128 .f32) (h : S8192x128.Reduces [1] S8192) (hφ : FKind.Formats .f32)
    (hacc : (0x00000000#32 : BitVec 32) = 0x00000000#32) (r : Fin 8192) :
    multiReduction .add [1] S8192 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src ?_
  exact funext fun a => Fin.ext (by match a with | ⟨0, _⟩ => rfl | ⟨1, _⟩ => rfl)

/-- THE BLOCK AT A ROW: what the point leaves at row `r` is the logistic function of the sum over the columns of
    (head · relation) · tail, for the blocks `P0` (head), `P1` (relation), `P2` (tail). -/
theorem block_row (P0 P1 P2 : Vec Ideal S8192x128 .f32) (r : Fin 8192) :
    E3 (F := Ideal) P0 P1 P2 (ix1 r)
      = Ideal.logistic (∑ k : Fin 128, P0 (ix2 r k) * P1 (ix2 r k) * P2 (ix2 r k)) := by
  show FloatOps.logistic (F := Ideal) (multiReduction (F := Ideal) .add [1] S8192
      (mulf (F := Ideal) (mulf (F := Ideal) (shapeCast S8192x128 P0 shapeCasts_S8192x128_S8192x128) (shapeCast S8192x128 P1 shapeCasts_S8192x128_S8192x128))
        (shapeCast S8192x128 P2 shapeCasts_S8192x128_S8192x128))
      0x00000000#32 reduces_S8192x128_S8192 (.inl rfl) rfl (ix3_0 (ix1 r))) = _
  rw [Ideal.logistic_def]
  refine congrArg Ideal.logistic ?_
  have hix : ix3_0 (ix1 r) = ix1 r := funext fun a => Fin.ext (by match a with | ⟨0, _⟩ => rfl)
  rw [hix]
  refine (row_sum _ reduces_S8192x128_S8192 (.inl rfl) rfl r).trans ?_
  refine Finset.sum_congr rfl fun k _ => ?_
  simp only [mulf_apply, shapeCast_self]

end Cert.DistMult.Block

end
-- ==== Proof.Whole.lean ====
/-
  From blocks to the whole score vector.

  The grid has 128 points; point `t` is handed rows 8192·t … 8192·t + 8191 of each of the three gathered arrays and writes
  back the same rows of the result. What it writes at row `r` of its block is the logistic function of that row's sum of
  (head · relation) · tail (the block lemma), and row `r` of block `t` of an array is row 8192·t + r of the array, so the
  point writes block `t` of `score` of the three arrays as the region finds them. The 128 blocks tile the 1048576 scores:
  index `i` lies in block `i / 8192`. Hence after the run the result array is `score` of the three arrays.
-/
import proofs.«180150_j88519275970866_1_alg».proof.Proof.Gen.KernelIdeal.Value
import proofs.«180150_j88519275970866_1_alg».proof.Proof.Score
import proofs.«180150_j88519275970866_1_alg».proof.Proof.BlockRow
import Idealize.ShloMosaic.Lib.Pipeline.Value
import Idealize.ShloMosaic.Lib.ValueIdx
import Idealize.ShloMosaic.Lib.Tactic

noncomputable section

open scoped BigOperators

namespace Cert.DistMult.Kernel

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.DistMult

variable (m : (ℓ : Loc nD τ sig) → Buf (Elt Ideal) ℓ) (ρ : Dev nD → PrngReg)

theorem zero_offsets : (![0, 0] : Fin 2 → Nat) = fun _ => 0 := funext fun a => by fin_cases a <;> rfl

/-- The output block a point leaves, from its three input blocks (`x0` head, `x1` tail, `x2` relation, in the
    order the body loads them), at row `y`: the logistic function of the row's sum of (head · relation) · tail. -/
theorem out_row (x0 x1 x2 : Vec Ideal S8192x128 .f32) (y : S8192.Idx) :
    out0_3 (F := Ideal) x0 x1 x2 y
      = Ideal.logistic (∑ k : Fin 128, x0 (ix2 (y 0) k) * x2 (ix2 (y 0) k) * x1 (ix2 (y 0) k)) := by
  unfold out0_3
  rw [canon3_eq]
  simp only [View.ld_unit_zero (S := S8192x128) zero_offsets]
  obtain ⟨r, rfl⟩ : ∃ r : Fin 8192, y = ix1 r := ⟨y 0, eq_ix1 y⟩
  exact Block.block_row x0 x2 x1 r

/-- The printed index maps over the 128 grid points: every window's block index along the rows is the point's number,
    and the three input windows do not move along the columns. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val :=
  (by decide +kernel : ∀ t : Fin grid0.N, _)

/-- Row `r`, column `k` of the head window's block at point `t` is row 8192·t + r, column `k` of the head array. -/
theorem head_block (c : Dev nD) (t : Fin cfg0.N) (x : S8192x128.Idx) (k : S1048576x128.Idx)
    (hk0 : (k 0).val = t.val * 8192 + (x 0).val) (hk1 : (k 1).val = (x 1).val) :
    (iblk m c 0 t : Vec Ideal S8192x128 .f32) x = (V m c main_v6 : S1048576x128.Idx → Elt Ideal .f32) k := by
  obtain ⟨e0, e1, -⟩ := block_index t
  unfold iblk
  rw [View.read_apply]
  show (V m c main_v6 : S1048576x128.Idx → Elt Ideal .f32) (((cfg0.win 0).blk t).view.emb x) = V m c main_v6 k
  refine congrArg (V m c main_v6 : S1048576x128.Idx → Elt Ideal .f32) ?_
  funext a; apply Fin.ext
  match a with
  | ⟨0, _⟩ => show win0_0.index t (0 : Fin 2) * 8192 + 1 * (x 0).val = (k 0).val; omega
  | ⟨1, _⟩ => show win0_0.index t (1 : Fin 2) * 128 + 1 * (x 1).val = (k 1).val; omega

/-- The same for the tail window and the tail array. -/
theorem tail_block (c : Dev nD) (t : Fin cfg0.N) (x : S8192x128.Idx) (k : S1048576x128.Idx)
    (hk0 : (k 0).val = t.val * 8192 + (x 0).val) (hk1 : (k 1).val = (x 1).val) :
    (iblk m c 1 t : Vec Ideal S8192x128 .f32) x = (V m c main_v13 : S1048576x128.Idx → Elt Ideal .f32) k := by
  obtain ⟨-, -, e0, e1, -⟩ := block_index t
  unfold iblk
  rw [View.read_apply]
  show (V m c main_v13 : S1048576x128.Idx → Elt Ideal .f32) (((cfg0.win 1).blk t).view.emb x) = V m c main_v13 k
  refine congrArg (V m c main_v13 : S1048576x128.Idx → Elt Ideal .f32) ?_
  funext a; apply Fin.ext
  match a with
  | ⟨0, _⟩ => show win0_1.index t (0 : Fin 2) * 8192 + 1 * (x 0).val = (k 0).val; omega
  | ⟨1, _⟩ => show win0_1.index t (1 : Fin 2) * 128 + 1 * (x 1).val = (k 1).val; omega

/-- The same for the relation window and the relation array. -/
theorem rel_block (c : Dev nD) (t : Fin cfg0.N) (x : S8192x128.Idx) (k : S1048576x128.Idx)
    (hk0 : (k 0).val = t.val * 8192 + (x 0).val) (hk1 : (k 1).val = (x 1).val) :
    (iblk m c 2 t : Vec Ideal S8192x128 .f32) x = (V m c main_v20 : S1048576x128.Idx → Elt Ideal .f32) k := by
  obtain ⟨-, -, -, -, e0, e1, -⟩ := block_index t
  unfold iblk
  rw [View.read_apply]
  show (V m c main_v20 : S1048576x128.Idx → Elt Ideal .f32) (((cfg0.win 2).blk t).view.emb x) = V m c main_v20 k
  refine congrArg (V m c main_v20 : S1048576x128.Idx → Elt Ideal .f32) ?_
  funext a; apply Fin.ext
  match a with
  | ⟨0, _⟩ => show win0_2.index t (0 : Fin 2) * 8192 + 1 * (x 0).val = (k 0).val; omega
  | ⟨1, _⟩ => show win0_2.index t (1 : Fin 2) * 128 + 1 * (x 1).val = (k 1).val; omega

/-- The scores of the three arrays as the region finds them. -/
abbrev result (c : Dev nD) : FVec Ideal Scores .f32 :=
  score (V m c main_v6) (V m c main_v20) (V m c main_v13)

/-- The score at triple `i`, written out over the three arrays. -/
theorem score_at (H R T : FVec Ideal Rows .f32) (i : Scores.Idx) :
    score H R T i = Ideal.logistic (∑ k : Fin 128, H (ix2 (i 0) k) * R (ix2 (i 0) k) * T (ix2 (i 0) k)) := rfl

/-- WHAT POINT `t` LEAVES AT ROW `y` is the score of triple 8192·t + y. -/
theorem point_row (c : Dev nD) (t : Fin cfg0.N) (y : S8192.Idx) (i : S1048576.Idx)
    (hi : (i 0).val = t.val * 8192 + (y 0).val) :
    out0_3 (F := Ideal) (iblk m c 0 t) (iblk m c 1 t) (iblk m c 2 t) y = result m c i := by
  have hs := score_at (V m c main_v6) (V m c main_v20) (V m c main_v13) i
  refine ((out_row (iblk m c 0 t) (iblk m c 1 t) (iblk m c 2 t) y).trans ?_).trans hs.symm
  refine congrArg Ideal.logistic (Finset.sum_congr rfl fun k _ => ?_)
  refine congrArg₂ (· * ·) (congrArg₂ (· * ·) ?_ ?_) ?_
  · exact head_block m c t (ix2 (y 0) k) (ix2 (i 0) k) hi rfl
  · exact rel_block m c t (ix2 (y 0) k) (ix2 (i 0) k) hi rfl
  · exact tail_block m c t (ix2 (y 0) k) (ix2 (i 0) k) hi rfl

/-- WHAT POINT `t` WRITES BACK is block `t` of the scores. -/
theorem flushed_eq (c : Dev nD) (t : Fin cfg0.N) :
    (dats m 0 c).flushed 3 t = ((cfg0.win 3).blk t).view.read (Elt Ideal) (result m c) := by
  rw [flushed3]
  obtain ⟨-, -, -, -, -, -, e3⟩ := block_index t
  funext j
  show out0_3 (F := Ideal) (iblk m c 0 t) (iblk m c 1 t) (iblk m c 2 t) j = result m c (((cfg0.win 3).blk t).view.emb j)
  refine point_row m c t j _ ?_
  show win0_3.index t (0 : Fin 1) * 8192 + 1 * (j 0).val = t.val * 8192 + (j 0).val
  omega

/-- A score index is in point `t`'s block iff it is in the block's range of rows. -/
theorem mem_block (t : Fin cfg0.N) (i : S1048576.Idx) :
    i ∈ ((cfg0.win 3).blk t).view.set ↔ ∀ a : Fin 1, win0_3.index t a * S8192.size a ≤ (i a).val ∧ (i a).val < win0_3.index t a * S8192.size a + S8192.size a := by
  show i ∈ ((View.whole main_v21).slice (win0_3.rect t)).set ↔ _
  rw [View.set_slice_whole, Rect.mem_set_unit]
  exact Iff.rfl

/-- THE BLOCKS TILE THE SCORES: index `i` is in the block of point `i / 8192`, which writes back. -/
theorem covered (i : S1048576.Idx) :
    ∃ t : Fin cfg0.N, (cfg0.win 3).flush t = true ∧ i ∈ ((cfg0.win 3).blk t).view.set := by
  have hN : cfg0.N = 128 := N_0
  have hi : (i 0).val < 1048576 := (i 0).isLt
  have ht : (i 0).val / 8192 < cfg0.N := by rw [hN]; omega
  obtain ⟨-, -, -, -, -, -, e3⟩ := block_index ⟨(i 0).val / 8192, ht⟩
  refine ⟨⟨(i 0).val / 8192, ht⟩, flush0_3 _, ?_⟩
  rw [mem_block]
  intro a
  match a with
  | ⟨0, _⟩ =>
    show win0_3.index ⟨(i 0).val / 8192, ht⟩ (0 : Fin 1) * 8192 ≤ (i 0).val
      ∧ (i 0).val < win0_3.index ⟨(i 0).val / 8192, ht⟩ (0 : Fin 1) * 8192 + 8192
    have e : win0_3.index ⟨(i 0).val / 8192, ht⟩ (0 : Fin 1) = (i 0).val / 8192 := e3
    omega

/-- THE RESULT ARRAY after the run: the scores of the three gathered arrays. -/
theorem final (c : Dev nD) : (dats m 0 c).arrAt 3 cfg0.N = result m c :=
  (dats m 0 c).arrAt_eq_of_cover 3 (result m c) (fun t _ => flushed_eq m c t) covered

/-- The kernel's run, read: the result array at the scores, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.DistMult.Kernel

end
-- ==== Proof.SameRows.lean ====
/-
  Both programs gather the same rows.

  Before the region the kernel's program normalises each index vector (a negative index has the table's height added),
  makes it a column, and gathers rows of the entity table (heads, tails) or the relation table with it; the reference's
  program does the same, operation for operation, before its own arithmetic. So the three arrays the region finds in its
  input windows are, as terms of the argument arrays, the three gathered stages of the reference. Nothing is said
  about WHICH rows a gather reads: the two sides are one term, so the gathers are never opened.
-/
import proofs.«180150_j88519275970866_1_alg».proof.Proof.Gen.KernelIdeal.Frame
import proofs.«180150_j88519275970866_1_alg».proof.Proof.Gen.ReferenceIdeal.Read
import Idealize.ShloMosaic.Lib.StableHlo.Run

noncomputable section

namespace Cert.DistMult.Rows

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The head window's array is the reference's head stage of the head indices and the entity table. -/
theorem head_rows (c : Dev nD) :
    (V m c main_v6 : S1048576x128.Idx → Elt Ideal .f32)
      = Cert.ReferenceIdeal.Read.val_main_v6 (F := Ideal) (m ((c : Thread nD τ).loc main_arg0)) (m ((c : Thread nD τ).loc main_arg3)) := by
  dsimp only [V, hostOps0]
  after_results_simp
  rfl

/-- The tail window's array is the reference's tail stage of the tail indices and the entity table. -/
theorem tail_rows (c : Dev nD) :
    (V m c main_v13 : S1048576x128.Idx → Elt Ideal .f32)
      = Cert.ReferenceIdeal.Read.val_main_v13 (F := Ideal) (m ((c : Thread nD τ).loc main_arg1)) (m ((c : Thread nD τ).loc main_arg3)) := by
  dsimp only [V, hostOps0]
  after_results_simp
  rfl

/-- The relation window's array is the reference's relation stage of the relation indices and the relation table. -/
theorem rel_rows (c : Dev nD) :
    (V m c main_v20 : S1048576x128.Idx → Elt Ideal .f32)
      = Cert.ReferenceIdeal.Read.val_main_v20 (F := Ideal) (m ((c : Thread nD τ).loc main_arg2)) (m ((c : Thread nD τ).loc main_arg4)) := by
  dsimp only [V, hostOps0]
  after_results_simp
  rfl

end Cert.DistMult.Rows

end
-- ==== Proof.lean ====
/-
  DistMult scoring: a Pallas kernel against its jnp reference, equal on the extended reals.

  Both programs take three index vectors (head, tail, relation; 1048576 triples), an entity table [1000000, 128] and a
  relation table [500, 128]. Each first gathers, on the host and by the same operations, the head rows H and tail rows T
  of the entity table and the relation rows R of the relation table, all [1048576, 128]. The score of triple b is then

      σ( Σ_k (H[b,k] · R[b,k]) · T[b,k] ),        σ(s) = 1 / (1 + e^(−s)).

  The kernel computes it over 128 blocks of 8192 triples: per block the two products, the sum along each row, and the
  logistic function as one operation. The reference computes it whole: the two products, the row sum started from zero,
  then negate, exponential, add one, divide into one.

  Why the two agree at every input, index vectors and infinities included:
    · the gathered arrays are the same three terms of the arguments on both sides, so which rows a gather reads
      (clamping, negative indices) never matters;
    · the products are grouped (H·R)·T on both sides, and each row is summed over the same 128 columns;
    · the reference's starting value is the zero word, which denotes 0 and adds nothing;
    · the logistic function IS 1 / (1 + e^(−s)) on the extended reals, the word 0x3F800000 denoting 1.
  No step uses distributivity or cancellation, so the finiteness precondition is never opened.

  The three frames are the generated ones (the reference's is its generated run with the result dropped); the
  idealization rewrote nothing, so `preserves` is `True`.
-/
import proofs.«180150_j88519275970866_1_alg».proof.Defs
import proofs.«180150_j88519275970866_1_alg».proof.Proof.Gen.Kernel
import proofs.«180150_j88519275970866_1_alg».proof.Proof.Gen.Kernel.Skeleton
import proofs.«180150_j88519275970866_1_alg».proof.Proof.Gen.Kernel.Launch
import proofs.«180150_j88519275970866_1_alg».proof.Proof.Gen.Kernel.Points
import proofs.«180150_j88519275970866_1_alg».proof.Proof.Gen.Kernel.Frame
import proofs.«180150_j88519275970866_1_alg».proof.Proof.Gen.KernelIdeal
import proofs.«180150_j88519275970866_1_alg».proof.Proof.Gen.KernelIdeal.Skeleton
import proofs.«180150_j88519275970866_1_alg».proof.Proof.Gen.KernelIdeal.Launch
import proofs.«180150_j88519275970866_1_alg».proof.Proof.Gen.KernelIdeal.Points
import proofs.«180150_j88519275970866_1_alg».proof.Proof.Gen.KernelIdeal.Frame
import proofs.«180150_j88519275970866_1_alg».proof.Proof.Gen.ReferenceIdeal
import proofs.«180150_j88519275970866_1_alg».proof.Proof.Gen.Pre_finite_inputs
import proofs.«180150_j88519275970866_1_alg».proof.Proof.Gen.KernelIdeal.Value
import proofs.«180150_j88519275970866_1_alg».proof.Proof.Gen.ReferenceIdeal.Run
import proofs.«180150_j88519275970866_1_alg».proof.Proof.Gen.ReferenceIdeal.Read
import proofs.«180150_j88519275970866_1_alg».proof.Proof.Score
import proofs.«180150_j88519275970866_1_alg».proof.Proof.RefScore
import proofs.«180150_j88519275970866_1_alg».proof.Proof.BlockRow
import proofs.«180150_j88519275970866_1_alg».proof.Proof.Whole
import proofs.«180150_j88519275970866_1_alg».proof.Proof.SameRows
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories agreeing on the arguments both programs end with the score vector of the same three gathered
    arrays: the kernel's result array by its blocks, the reference's by its last stage. -/
theorem algebraic : Cert.algebraic_KernelIdeal_ReferenceIdeal := by
  intro m ρ m' ρ' _ hagree
  refine ⟨fun c => Cert.DistMult.Kernel.result m c, Cert.DistMult.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.DistMult.Ref.stage_eq_score,
    (hagree c).1, (hagree c).2.1, (hagree c).2.2.1, (hagree c).2.2.2.1, (hagree c).2.2.2.2]
  show _ = Cert.DistMult.score _ _ _
  rw [Cert.DistMult.Rows.head_rows m c, Cert.DistMult.Rows.rel_rows m c, Cert.DistMult.Rows.tail_rows m c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
